-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S128x256 : Shape := ⟨2, ![128, 256]⟩
abbrev S256 : Shape := ⟨1, ![256]⟩
abbrev S256x64 : Shape := ⟨2, ![256, 64]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x64 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S800000 .f32) (main_arg3 : FVec F S128x64 .f32) (main_arg4 : FVec F S128x256 .f32) (main_arg5 : FVec F S256 .f32) (main_arg6 : FVec F S256x64 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S128x256 : Shape := ⟨2, ![128, 256]⟩
abbrev S256 : Shape := ⟨1, ![256]⟩
abbrev S256x64 : Shape := ⟨2, ![256, 64]⟩
abbrev S128 : Shape := ⟨1, ![128]⟩
abbrev S1x800000 : Shape := ⟨2, ![1, 800000]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000 : Shape := ⟨1, ![50000]⟩
abbrev S50000x1 : Shape := ⟨2, ![50000, 1]⟩
abbrev S5000x64 : Shape := ⟨2, ![5000, 64]⟩
abbrev S1x128 : Shape := ⟨2, ![1, 128]⟩

abbrev nBuf : Space → Nat
  | .hbm => 51
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x256, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .bf16⟩
  | .hbm, ⟨22, _⟩ => ⟨S800000x256, .f32⟩
  | .hbm, ⟨23, _⟩ => ⟨S800000x1, .f32⟩
  | .hbm, ⟨24, _⟩ => ⟨S800000x256, .f32⟩
  | .hbm, ⟨25, _⟩ => ⟨S800000x256, .f32⟩
  | .hbm, ⟨26, _⟩ => ⟨S1x256, .f32⟩
  | .hbm, ⟨27, _⟩ => ⟨S800000x256, .f32⟩
  | .hbm, ⟨28, _⟩ => ⟨S800000x256, .f32⟩
  | .hbm, ⟨29, _⟩ => ⟨S_, .f32⟩
  | .hbm, ⟨30, _⟩ => ⟨S800000x256, .f32⟩
  | .hbm, ⟨31, _⟩ => ⟨S800000x256, .f32⟩
  | .hbm, ⟨32, _⟩ => ⟨S800000x256, .bf16⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x256, .f32⟩
  | .hbm, ⟨49, _⟩ => ⟨S50000x256, .f32⟩
  | .hbm, ⟨50, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .bf16⟩
  | .local _ .vmem, ⟨4, _⟩ => ⟨S5000x256, .bf16⟩
  | .local _ .vmem, ⟨5, _⟩ => ⟨S5000x128, .f32⟩
  | .local _ .vmem, ⟨6, _⟩ => ⟨S5000x128, .f32⟩
  | .local _ .vmem, ⟨7, _⟩ => ⟨S5000x256, .f32⟩
  | .local _ .vmem, ⟨8, _⟩ => ⟨S5000x256, .f32⟩
  | .local _ .vmem, ⟨9, _⟩ => ⟨S128x64, .f32⟩
  | .local _ .vmem, ⟨10, _⟩ => ⟨S256x64, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S128x64_S128x64_0_0 : ∀ a, (![0, 0] : Fin 2 → Nat) a + S128x64.size a ≤ S128x64.size a
  h_S128x64 : 0 < S128x64.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  concatenates_S5000x64_S5000x64_S5000x128_d1 : Shape.Concatenates [S5000x64, S5000x64] S5000x128 1
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S128x256 : Shape := ⟨2, ![128, 256]⟩
abbrev S256 : Shape := ⟨1, ![256]⟩
abbrev S256x64 : Shape := ⟨2, ![256, 64]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256 : Shape := ⟨2, ![1, 256]⟩
abbrev S50000x256 : Shape := ⟨2, ![50000, 256]⟩
abbrev S50000 : Shape := ⟨1, ![50000]⟩
abbrev S50000x1 : Shape := ⟨2, ![50000, 1]⟩
abbrev S50000x64 : Shape := ⟨2, ![50000, 64]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S800000x256, .f32⟩
  | .hbm, ⟨25, _⟩ => ⟨S1x256, .f32⟩
  | .hbm, ⟨26, _⟩ => ⟨S800000x256, .f32⟩
  | .hbm, ⟨27, _⟩ => ⟨S800000x256, .f32⟩
  | .hbm, ⟨28, _⟩ => ⟨S_, .f32⟩
  | .hbm, ⟨29, _⟩ => ⟨S800000x256, .f32⟩
  | .hbm, ⟨30, _⟩ => ⟨S800000x256, .f32⟩
  | .hbm, ⟨31, _⟩ => ⟨S_, .f32⟩
  | .hbm, ⟨32, _⟩ => ⟨S50000x256, .f32⟩
  | .hbm, ⟨33, _⟩ => ⟨S800000x1, .i32⟩
  | .hbm, ⟨34, _⟩ => ⟨S50000x256, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x256, .f32⟩
  | .hbm, ⟨46, _⟩ => ⟨S50000x256, .f32⟩
  | .hbm, ⟨47, _⟩ => ⟨S50000x64, .f32⟩
  | .hbm, ⟨48, _⟩ => ⟨S50000x64, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x64_S50000x64_S50000x128_d1 : Shape.Concatenates [S50000x64, S50000x64] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x128_S128x256_S800000x256_1_0_0_1_n_n_wf : DotDims.WF S800000x128 S128x256 S800000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named: every weakly fair execution of the whole program — the first
  launch, the host operations between the two launches, the second launch — terminates without a fault, the
  eight argument arrays end as they were launched, and the result array ends at the contents the second launch's
  write-backs leave (the last boundary's contents read at the result's buffer). The argument is the one that gives
  the frame: the run of the program's six segments from boundary to boundary; here the final state is read at
  one more buffer, the result's.
-/
import proofs.«163181_j79972291052243_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_named : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.KernelHost.lean ====
/-
  What the host operations between the two launches compute, read back one stretch at a time.

  From the edge list `ei : [2, 800000]`: `rowsOf ei` is its first row (the destination of each edge), `colsOf ei`
  its second (the source). `srcIdx col` is the column of source indices with a negative index moved up by 50000.
  `edgeOf xw col w b` is the per-edge hidden value: at `(e, j)` the larger of `0` and `w[e] · xw[src e, j] + b[j]`,
  the row `src e` gathered from the node-side product. `meanOf row h` is the per-node mean: the sum of `h` over the
  edges arriving at a node, divided by the larger of `1` and the number of such edges.
  The array the second launch reads as its second operand is `meanOf (rowsOf ei) (edgeOf xw (colsOf ei) w b)`, with
  `xw` what the first launch left; every argument array is still as launched when each launch begins.
-/
import proofs.«163181_j79972291052243_2_alg».proof.Proof.Gen.KernelIdeal.Frame
import Idealize.ShloMosaic.Lib.StableHlo.Run
import Idealize.ShloMosaic.PureOps.Ideal

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

/-- The destination node of each edge. -/
def rowsOf (ei : IVec S2x800000 32) : IVec S800000 32 :=
  shapeCast _ (extractStridedSlice S1x800000 ![0, 0] ei slices_S2x800000_S1x800000_0_0) shapeCasts_S1x800000_S800000

/-- The source node of each edge. -/
def colsOf (ei : IVec S2x800000 32) : IVec S800000 32 :=
  shapeCast _ (extractStridedSlice S1x800000 ![1, 0] ei slices_S2x800000_S1x800000_1_0) shapeCasts_S1x800000_S800000

/-- The source indices as a column, a negative one moved up by the number of nodes. -/
def srcIdx (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- The per-edge value before the threshold: `w[e] · xw[src e, j] + b[j]`. -/
def preOf (xw : FVec Ideal S50000x256 .bf16) (col : IVec S800000 32)
    (w : FVec Ideal S800000 .f32) (b : FVec Ideal S256 .f32) :
    FVec Ideal S800000x256 .f32 :=
  addf
    (mulf
      (broadcastInDim S800000x256 ![0, 1] bcast_S800000x1_S800000x256_0_1
        (broadcastInDim S800000x1 ![0] bcast_S800000_S800000x1_0 w))
      (extf .f32 (Host.gather gather_S50000x256_S800000x1_S800000x256_1_0_n_n_0_1_1256 xw (srcIdx col)) bitsLt_bf16_f32))
    (broadcastInDim S800000x256 ![0, 1] bcast_S1x256_S800000x256_0_1 (broadcastInDim S1x256 ![1] bcast_S256_S1x256_1 b))

/-- The per-edge hidden value: the larger of `0` and `preOf`. -/
def edgeOf (xw : FVec Ideal S50000x256 .bf16) (col : IVec S800000 32)
    (w : FVec Ideal S800000 .f32) (b : FVec Ideal S256 .f32) :
    FVec Ideal S800000x256 .f32 :=
  maximumf (preOf xw col w b) (broadcastInDim S800000x256 ![] bcast_S_S800000x256 (constant (F := Ideal) S_ .f32 0x00000000#32))

/-- The per-node mean of the per-edge values over the edges arriving at the node. -/
def meanOf (row : IVec S800000 32) (h : FVec Ideal S800000x256 .f32) :
    FVec Ideal S50000x256 .f32 :=
  Host.divf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 row) h)
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 row)
            (broadcastInDim S800000 ![] bcast_S_S800000 (constant (F := Ideal) S_ .f32 0x3F800000#32)))
          (broadcastInDim S50000 ![] bcast_S_S50000 (constant (F := Ideal) S_ .f32 0x3F800000#32)))))

/-! ## One stretch at a time, from any contents `Y` -/

variable (Y : Valuation τ sig (Elt Ideal))

/-- The last stretch: the mean, of the rows and of the per-edge values (their round trip through the narrower
    format is the identity on extended reals). -/
theorem last_mean : (StableHlo.after (hostOps1_2 (F := Ideal)) Y (Proc.devRef .tc main_v33)
      : FVec Ideal S50000x256 .f32)
    = meanOf (Y (Proc.devRef .tc main_v1)) (Y (Proc.devRef .tc main_v19)) := by
  after_results
  rfl

/-- The threshold stretch. -/
theorem mid_edge : (StableHlo.after (hostOps1_1 (F := Ideal)) Y (Proc.devRef .tc main_v19)
      : FVec Ideal S800000x256 .f32)
    = maximumf (Y (Proc.devRef .tc main_v18) : FVec Ideal S800000x256 .f32)
        (broadcastInDim S800000x256 ![] bcast_S_S800000x256 (constant (F := Ideal) S_ .f32 0x00000000#32)) := by
  after_results
  rfl

theorem mid_rows : StableHlo.after (hostOps1_1 (F := Ideal)) Y (Proc.devRef .tc main_v1) = Y (Proc.devRef .tc main_v1) := by
  after_results

/-- The gather stretch. -/
theorem first_pre : (StableHlo.after (hostOps1 (F := Ideal)) Y (Proc.devRef .tc main_v18)
      : FVec Ideal S800000x256 .f32)
    = preOf (Y (Proc.devRef .tc main_v4)) (Y (Proc.devRef .tc main_v3)) (Y (Proc.devRef .tc main_arg2))
        (Y (Proc.devRef .tc main_arg5)) := by
  after_results
  rfl

theorem first_rows : StableHlo.after (hostOps1 (F := Ideal)) Y (Proc.devRef .tc main_v1) = Y (Proc.devRef .tc main_v1) := by
  after_results

/-- The opening stretch: the two rows of the edge list. -/
theorem open_rows : (StableHlo.after (hostOps0 (F := Ideal)) Y (Proc.devRef .tc main_v1)
      : IVec S800000 32) = rowsOf (Y (Proc.devRef .tc main_arg1)) := by
  after_results
  rfl

theorem open_cols : (StableHlo.after (hostOps0 (F := Ideal)) Y (Proc.devRef .tc main_v3)
      : IVec S800000 32) = colsOf (Y (Proc.devRef .tc main_arg1)) := by
  after_results
  rfl

theorem open_arg0 : StableHlo.after (hostOps0 (F := Ideal)) Y (Proc.devRef .tc main_arg0) = Y (Proc.devRef .tc main_arg0) := by
  after_results
theorem open_arg2 : StableHlo.after (hostOps0 (F := Ideal)) Y (Proc.devRef .tc main_arg2) = Y (Proc.devRef .tc main_arg2) := by
  after_results
theorem open_arg4 : StableHlo.after (hostOps0 (F := Ideal)) Y (Proc.devRef .tc main_arg4) = Y (Proc.devRef .tc main_arg4) := by
  after_results
theorem open_arg5 : StableHlo.after (hostOps0 (F := Ideal)) Y (Proc.devRef .tc main_arg5) = Y (Proc.devRef .tc main_arg5) := by
  after_results

end Cert.KernelIdeal.Between

end
-- ==== Proof.Spec.lean ====
/-
  The two whole-array functions the kernel's two launches compute, index by index over the extended reals.

  `rowDot x w n j` is row `n` of `x` against column `j` of `w`, the sum over `k` of `x[n,k] · w[k,j]`.
  The first launch leaves the node-side product `xw x w` (entry `(n, j)` is `rowDot x w n j`).
  The second launch leaves `node x mh sk nk b`: at row `n` and column `j`, the larger of `0` and
  `c + b[j]`, where `c` is `rowDot x sk n j` for a column below 64 and `rowDot mh nk n (j − 64)` from 64 on
  (the two products laid side by side along the columns).
-/
import Idealize.ShloMosaic.PureOps.Ideal
import Idealize.ShloMosaic.Lib.ValueIdx

noncomputable section

open scoped BigOperators

namespace Cert.GraphLayer

open Idealize.ShloMosaic Idealize.ShloMosaic.ValueIdx

/-- A matrix of extended reals with `a` rows and `b` columns. -/
abbrev Mat (a b : ℕ) : Type := (⟨2, ![a, b]⟩ : Shape).Idx → EReal
/-- A vector of extended reals with `a` entries. -/
abbrev Col (a : ℕ) : Type := (⟨1, ![a]⟩ : Shape).Idx → EReal

/-- Row `n` of `x` against column `j` of `w`. -/
def rowDot {N K M : ℕ} (x : Mat N K) (w : Mat K M) (n : Fin N) (j : Fin M) : EReal :=
  ∑ k : Fin K, x (ix2 n k) * w (ix2 k j)

/-- The node-side product, whole. -/
def xw (x : Mat 50000 128) (w : Mat 128 256) : Mat 50000 256 :=
  fun i => rowDot x w (i 0) (i 1)

/-- One entry of the layer's output from its coordinates. -/
def nodeAt (x : Mat 50000 128) (mh : Mat 50000 256) (sk : Mat 128 64) (nk : Mat 256 64) (b : Col 128)
    (n : Fin 50000) (j : Fin 128) : EReal :=
  max ((if h : j.val < 64 then rowDot x sk n ⟨j.val, h⟩
        else rowDot mh nk n ⟨j.val - 64, by have := j.isLt; omega⟩) + b (ix1 j))
    (Ideal.ofBits .f32 0x00000000#32)

/-- The layer's output, whole. -/
def node (x : Mat 50000 128) (mh : Mat 50000 256) (sk : Mat 128 64) (nk : Mat 256 64) (b : Col 128) :
    Mat 50000 128 :=
  fun i => nodeAt x mh sk nk b (i 0) (i 1)

end Cert.GraphLayer

end
-- ==== Proof.XwArray.lean ====
/-
  The first launch's output array, whole: after the ten grid points the node-side product array holds, at row `n` and
  column `j`, the sum over `k` of `x[n,k] · w[k,j]`, for whatever contents `x`, `w` the launch finds in its two
  input arrays.

  Three steps. (1) The block payload at an index: a [5000,128] block times the [128,256] matrix into a zero
  accumulator is, at `(p, q)`, the sum over `k` of the products (the format changes are the identity on the extended
  reals). (2) Point `t` writes back rows `5000·t … 5000·t + 4999` of the whole product: its input block is those rows
  of `x`, and the second operand is all of `w`. (3) Row `r` lies in the block of point `r / 5000`, so the ten blocks
  cover the array.
-/
import proofs.«163181_j79972291052243_2_alg».proof.Proof.Spec
import proofs.«163181_j79972291052243_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

namespace Cert.GraphLayer.XwArray

variable (V : (c : Dev nD) → (b : Ref sig .tc) → Buf (Elt Ideal) ((c : Thread nD τ).loc b))

/-- The contraction record of the block product. -/
abbrev D : DotDims S5000x128 S128x256 S5000x256 := dot_S5000x128_S128x256_S5000x256_1_0_0_1_n_n

/-- The first operand's index at output index `i` and contraction index `κ`: row `i 0`, … -/
theorem lhs_row (i : S5000x256.Idx) (κ : D.contr.Idx) : (D.lhsIdx i κ 0).val = (i 0).val := by
  unfold DotDims.lhsIdx
  rw [dif_neg (show ¬(0 : Fin S5000x128.rank) ∈ D.lhsBatch by decide), dif_pos (show (0 : Fin S5000x128.rank) ∈ D.lhsNonContracting by decide)]
  rfl
/-- … column the contraction coordinate. -/
theorem lhs_col (i : S5000x256.Idx) (κ : D.contr.Idx) : (D.lhsIdx i κ 1).val = (κ ⟨0, by decide⟩).val :=
  D.lhsIdx_val_of_single rfl i κ
/-- The second operand's: row the contraction coordinate, … -/
theorem rhs_row (i : S5000x256.Idx) (κ : D.contr.Idx) : (D.rhsIdx i κ 0).val = (κ ⟨0, by decide⟩).val :=
  D.rhsIdx_val_of_single rfl i κ
/-- … column `i 1`. -/
theorem rhs_col (i : S5000x256.Idx) (κ : D.contr.Idx) : (D.rhsIdx i κ 1).val = (i 1).val := by
  unfold DotDims.rhsIdx
  rw [dif_neg (show ¬(1 : Fin S128x256.rank) ∈ D.rhsBatch by decide), dif_pos (show (1 : Fin S128x256.rank) ∈ D.rhsNonContracting by decide)]
  rfl

/-- The block payload at `(p, q)`: the row `p` of the first block against the column `q` of the second. -/
theorem pay_apply (x0 : Vec Ideal S5000x128 .f32) (x1 : Vec Ideal S128x256 .f32) (p : Fin 5000) (q : Fin 256) :
    k0_pay1 (F := Ideal) x0 x1 (ix2 p q) = ∑ k : Fin 128, x0 (ix2 p k) * x1 (ix2 k q) := by
  unfold k0_pay1
  rw [truncf_apply]
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [truncf_apply, truncf_apply, el, er]

theorem zeros2 : (![0, 0] : Fin 2 → Nat) = fun _ => 0 := funext fun a => by fin_cases a <;> rfl

/-- The printed index maps, decided over the grid: the two row-blocked windows sit at block `(t, 0)`, the whole-array
    window at block `(0, 0)`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block of the product. If the first block `x0` is rows `5000·T …` of `x` and the second block `x1` is all of
    `w`, the payload at block index `y` is the whole product at the array index `i` that `y` names: row
    `5000·T + y 0`, column `y 1`. -/
theorem block_value (x : Mat 50000 128) (w : Mat 128 256) (x0 : Vec Ideal S5000x128 .f32) (x1 : Vec Ideal S128x256 .f32)
    (T : Nat)
    (h0 : ∀ (y : S5000x128.Idx) (i : S50000x128.Idx), (i 0).val = 5000 * T + (y 0).val → (i 1).val = (y 1).val → x0 y = x i)
    (h1 : x1 = w)
    (y : S5000x256.Idx) (i : S50000x256.Idx) (hi0 : (i 0).val = 5000 * T + (y 0).val) (hi1 : (i 1).val = (y 1).val) :
    k0_pay1 (F := Ideal) x0 x1 y = xw x w i := by
  obtain ⟨p, q, rfl⟩ : ∃ (p : Fin 5000) (q : Fin 256), y = ix2 p q := ⟨y 0, y 1, eq_ix2 y⟩
  rw [pay_apply]
  subst h1
  unfold xw rowDot
  refine Finset.sum_congr rfl fun k _ => ?_
  rw [h0 (ix2 p k) (ix2 (i 0) k) hi0 rfl]
  exact congrArg (x (ix2 (i 0) k) * x1 ·) (funext fun a => Fin.ext (by
    match a with
    | ⟨0, _⟩ => rfl
    | ⟨1, _⟩ => exact hi1.symm))

/-- What point `t` writes back is block `t` of the whole product. -/
theorem flushed_eq (c : Dev nD) (t : Fin cfg0.N) :
    (dat0 (F := Ideal) V c).flushed 2 t
      = ((cfg0.win 2).blk t).view.read (Elt Ideal) (xw (V c main_arg0) (V c main_arg4)) := by
  show (cfg0.win 2).cut (grid0.coords t) ((dat0 (F := Ideal) V c).after 2 t) = _
  rw [after0_2]
  unfold out0_2
  rw [View.canon_unit_zero zeros2]
  simp only [View.ld_unit_zero (S := S5000x128) zeros2, View.ld_unit_zero (S := S128x256) zeros2]
  funext j
  obtain ⟨e0, e1, e2, e3, e4, e5⟩ := index_facts t
  refine block_value (V c main_arg0) (V c main_arg4) (iblk0 V c 0 t) (iblk0 V c 1 t) t.val ?_ ?_
    ((win0 2).xinj (grid0.coords t) j) (((View.whole main_v4).slice ((win0 2).rect t)).emb j) ?_ ?_
  · intro y i hy0 hy1
    show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; rw [e0, hy0]; omega
    | ⟨1, _⟩ => show win0_0.index t (1 : Fin 2) * 128 + 1 * (y 1).val = (i 1).val; rw [e1, hy1]; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; rw [e2]; omega
    | ⟨1, _⟩ => show win0_1.index t (1 : Fin 2) * 256 + 1 * (y 1).val = (y 1).val; rw [e3]; omega
  · show win0_2.index t (0 : Fin 2) * 5000 + 1 * (j 0).val = 5000 * t.val + (j 0).val; rw [e4]; omega
  · show win0_2.index t (1 : Fin 2) * 256 + 1 * (j 1).val = (j 1).val; rw [e5]; omega

/-- An index of the array is in point `t`'s block iff each coordinate is in the block's range on its axis. -/
theorem mem_block (t : Fin cfg0.N) (i : S50000x256.Idx) :
    i ∈ ((cfg0.win 2).blk t).view.set
      ↔ ∀ a : Fin 2, win0_2.index t a * S5000x256.size a ≤ (i a).val
          ∧ (i a).val < win0_2.index t a * S5000x256.size a + S5000x256.size a := by
  show i ∈ ((View.whole main_v4).slice (win0_2.rect t)).set ↔ _
  rw [View.set_slice_whole, Rect.mem_set_unit]
  exact Iff.rfl

/-- Row `r` lies in the block of point `r / 5000`: the ten blocks cover the array. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_2 t, ?_⟩
  rw [mem_block]
  obtain ⟨-, -, -, -, e4, e5⟩ := index_facts t
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 256 ≤ (i 1).val ∧ (i 1).val < win0_2.index t (1 : Fin 2) * 256 + 256
    rw [e5]; omega

/-- The first launch's output array after its ten points: the whole product of the two input arrays as the launch
    finds them. -/
theorem region0_value (c : Dev nD) :
    (Gen.dat0 (F := Ideal) V c).arrAt 2 cfg0.N = Cert.GraphLayer.xw (V c main_arg0) (V c main_arg4) :=
  (dat0 (F := Ideal) V c).arrAt_eq_of_cover 2 (xw (V c main_arg0) (V c main_arg4)) (fun t _ => flushed_eq V c t) covered

end Cert.GraphLayer.XwArray

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.NodeArray.lean ====
/-
  The second launch's output array, whole.

  Each of the ten grid points handles 5000 consecutive rows. At a point the body multiplies the point's rows of
  `x` by `sk` and the point's rows of `mh` by `nk` (two sums of products into zero), lays the two products side by
  side along the columns, adds the bias row to every row and takes the larger of that and zero. Read at row `p` of
  the block and column `j` this is `max (c + b[j]) 0` with `c` the sum over `k` of `x[p,k] · sk[k,j]` for `j < 64`
  and of `mh[p,k] · nk[k,j-64]` from 64 on. Row `p` of point `t`'s block is row `5000·t + p` of the arrays, the
  blocks of the ten points cover the 50000 rows, so the output array ends as `Cert.GraphLayer.node` of the arrays
  the launch found.
-/
import proofs.«163181_j79972291052243_2_alg».proof.Proof.Gen.KernelIdeal.Frame
import proofs.«163181_j79972291052243_2_alg».proof.Proof.Spec
import proofs.«163181_j79972291052243_2_alg».proof.Proof.LibConcat2
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Cert.KernelIdeal Cert.KernelIdeal.Gen
open Idealize.ShloMosaic.Pipeline (Dat)

namespace Cert.GraphLayer.NodeArray

/-! ## The body's value at an index -/

theorem dotX_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dotX_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dotX_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dotX_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first product at row `p` and column `j`: the sum over the 128 shared coordinates. -/
theorem dotX_apply (a : FVec Ideal S5000x128 .bf16) (b : FVec Ideal S128x64 .bf16) (p : Fin 5000) (j : Fin 64) :
    matmul dot_S5000x128_S128x64_S5000x64_1_0_0_1_n_n none a b (constant (F := Ideal) S5000x64 .f32 0x00000000#32) (ix2 p j)
      = ∑ k : Fin 128, a (ix2 p k) * b (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p j) ((contrEquiv1 dot_S5000x128_S128x64_S5000x64_1_0_0_1_n_n 128 rfl rfl).symm k) = ix2 p k := funext fun a => Fin.ext (by
    match a with
    | ⟨0, _⟩ => exact dotX_lhs0 _ _
    | ⟨1, _⟩ => exact (dotX_lhs1 _ _).trans hk)
  have er : dot_S5000x128_S128x64_S5000x64_1_0_0_1_n_n.rhsIdx (ix2 p j) ((contrEquiv1 dot_S5000x128_S128x64_S5000x64_1_0_0_1_n_n 128 rfl rfl).symm k) = ix2 k j := funext fun a => Fin.ext (by
    match a with
    | ⟨0, _⟩ => exact (dotX_rhs0 _ _).trans hk
    | ⟨1, _⟩ => exact dotX_rhs1 _ _)
  rw [el, er]

theorem dotM_lhs0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem dotM_lhs1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
theorem dotM_rhs0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q
theorem dotM_rhs1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The second product at row `p` and column `j`: the sum over the 256 shared coordinates. -/
theorem dotM_apply (a : FVec Ideal S5000x256 .bf16) (b : FVec Ideal S256x64 .bf16) (p : Fin 5000) (j : Fin 64) :
    matmul dot_S5000x256_S256x64_S5000x64_1_0_0_1_n_n none a b (constant (F := Ideal) S5000x64 .f32 0x00000000#32) (ix2 p j)
      = ∑ k : Fin 256, a (ix2 p k) * b (ix2 k j) := by
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p j) ((contrEquiv1 dot_S5000x256_S256x64_S5000x64_1_0_0_1_n_n 256 rfl rfl).symm k) = ix2 p k := funext fun a => Fin.ext (by
    match a with
    | ⟨0, _⟩ => exact dotM_lhs0 _ _
    | ⟨1, _⟩ => exact (dotM_lhs1 _ _).trans hk)
  have er : dot_S5000x256_S256x64_S5000x64_1_0_0_1_n_n.rhsIdx (ix2 p j) ((contrEquiv1 dot_S5000x256_S256x64_S5000x64_1_0_0_1_n_n 256 rfl rfl).symm k) = ix2 k j := funext fun a => Fin.ext (by
    match a with
    | ⟨0, _⟩ => exact (dotM_rhs0 _ _).trans hk
    | ⟨1, _⟩ => exact dotM_rhs1 _ _)
  rw [el, er]

/-- The body's stored value at row `p` of the block and column `j`. -/
theorem pay_apply (v0 : Vec Ideal S5000x128 .f32) (v2 : Vec Ideal S128x64 .f32) (v5 : Vec Ideal S5000x256 .f32)
    (v8 : Vec Ideal S256x64 .f32) (v12 : Vec Ideal S128 .f32) (p : Fin 5000) (j : Fin 128) :
    k1_pay1 (F := Ideal) v0 v2 v5 v8 v12 (ix2 p j)
      = max ((if h : j.val < 64 then ∑ k : Fin 128, v0 (ix2 p k) * v2 (ix2 k ⟨j.val, h⟩)
              else ∑ k : Fin 256, v5 (ix2 p k) * v8 (ix2 k ⟨j.val - 64, by have := j.isLt; omega⟩)) + v12 (ix1 j))
          (Ideal.ofBits .f32 0x00000000#32) := by
  unfold k1_pay1
  rw [maximumf_apply, addf_apply, broadcast_apply, broadcastTo_1b_ab_apply, shapeCast_a_1a_apply, shapeCast_self]
  by_cases h : j.val < 64
  · rw [dif_pos h, Cert.LibConcat2.last2_left _ _ _ p j h, dotX_apply]
    rfl
  · rw [dif_neg h, Cert.LibConcat2.last2_right _ _ _ p j (by omega) (by have := j.isLt; omega), dotM_apply]
    rfl

/-! ## One point's block, read off the arrays -/

section Blocks

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block indices over the grid: the row-blocked windows (`x`, `mh`, the output) sit at block `(t, 0)` at point
    `t`, the whole-array windows (`sk`, `nk`, the bias) at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of point `t`'s block of `x` is row `5000·t + p` of `x`. -/
theorem blkX_apply (c : Dev nD) (t : Fin cfg1.N) (p : Fin 5000) (k : Fin 128) (n : Fin 50000)
    (hn : n.val = 5000 * t.val + p.val) :
    (iblk1 V c 0 t : Vec Ideal S5000x128 .f32) (ix2 p k) = (V c main_arg0 : S50000x128.Idx → EReal) (ix2 n k) := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 5000 + 1 * p.val = n.val; omega
  | ⟨1, _⟩ => show win1_0.index t (1 : Fin 2) * 128 + 1 * k.val = k.val; omega

/-- Row `p` of point `t`'s block of `mh` is row `5000·t + p` of `mh`. -/
theorem blkM_apply (c : Dev nD) (t : Fin cfg1.N) (p : Fin 5000) (k : Fin 256) (n : Fin 50000)
    (hn : n.val = 5000 * t.val + p.val) :
    (iblk1 V c 1 t : Vec Ideal S5000x256 .f32) (ix2 p k) = (V c main_v33 : S50000x256.Idx → EReal) (ix2 n k) := by
  obtain ⟨-, -, e0, e1, -⟩ := idx_facts t
  unfold iblk1
  rw [View.read_apply]
  show V c main_v33 _ = V c main_v33 _
  congr 1
  funext a
  apply Fin.ext
  match a with
  | ⟨0, _⟩ => show win1_1.index t (0 : Fin 2) * 5000 + 1 * p.val = n.val; omega
  | ⟨1, _⟩ => show win1_1.index t (1 : Fin 2) * 256 + 1 * k.val = k.val; omega

/-- Every point's block of `sk` is `sk`. -/
theorem blkSk_apply (c : Dev nD) (t : Fin cfg1.N) (k : Fin 128) (j : Fin 64) :
    (iblk1 V c 2 t : Vec Ideal S128x64 .f32) (ix2 k j) = (V c main_arg3 : S128x64.Idx → EReal) (ix2 k j) := by
  obtain ⟨-, -, -, -, e0, e1, -⟩ := idx_facts t
  unfold iblk1
  rw [View.read_apply]
  show V c main_arg3 _ = V c main_arg3 _
  congr 1
  funext a
  apply Fin.ext
  match a with
  | ⟨0, _⟩ => show win1_2.index t (0 : Fin 2) * 128 + 1 * k.val = k.val; omega
  | ⟨1, _⟩ => show win1_2.index t (1 : Fin 2) * 64 + 1 * j.val = j.val; omega

/-- Every point's block of `nk` is `nk`. -/
theorem blkNk_apply (c : Dev nD) (t : Fin cfg1.N) (k : Fin 256) (j : Fin 64) :
    (iblk1 V c 3 t : Vec Ideal S256x64 .f32) (ix2 k j) = (V c main_arg6 : S256x64.Idx → EReal) (ix2 k j) := by
  obtain ⟨-, -, -, -, -, -, e0, e1, -⟩ := idx_facts t
  unfold iblk1
  rw [View.read_apply]
  show V c main_arg6 _ = V c main_arg6 _
  congr 1
  funext a
  apply Fin.ext
  match a with
  | ⟨0, _⟩ => show win1_3.index t (0 : Fin 2) * 256 + 1 * k.val = k.val; omega
  | ⟨1, _⟩ => show win1_3.index t (1 : Fin 2) * 64 + 1 * j.val = j.val; omega

/-- Every point's block of the bias is the bias. -/
theorem blkB_apply (c : Dev nD) (t : Fin cfg1.N) (j : Fin 128) :
    (iblk1 V c 4 t : Vec Ideal S128 .f32) (ix1 j) = (V c main_arg7 : S128.Idx → EReal) (ix1 j) := by
  obtain ⟨-, -, -, -, -, -, -, -, e0, -⟩ := idx_facts t
  unfold iblk1
  rw [View.read_apply]
  show V c main_arg7 _ = V c main_arg7 _
  congr 1
  funext a
  apply Fin.ext
  match a with
  | ⟨0, _⟩ => show win1_4.index t (0 : Fin 1) * 128 + 1 * j.val = j.val; omega

/-- What point `t` writes back is block `t` of the layer's output computed from the arrays the launch found. -/
theorem flushed_eq (c : Dev nD) (t : Fin cfg1.N) :
    (dat1 (F := Ideal) V c).flushed 5 t = ((cfg1.win 5).blk t).view.read (Elt Ideal)
      (Cert.GraphLayer.node (V c main_arg0) (V c main_v33) (V c main_arg3) (V c main_arg6) (V c main_arg7)) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S5000x256) zeros2,
    View.ld_unit_zero (S := S128x64) zeros2, View.ld_unit_zero (S := S256x64) zeros2, View.ld_unit_zero (S := S128) zeros1]
  funext y
  obtain ⟨p, q, rfl⟩ : ∃ (p : Fin 5000) (q : Fin 128), y = ix2 p q := ⟨y 0, y 1, eq_ix2 y⟩
  have ht : t.val < 10 := by have := t.isLt; have hN : cfg1.N = 10 := N_1; omega
  obtain ⟨-, -, -, -, -, -, -, -, -, e0, e1⟩ := idx_facts t
  have hp : p.val < 5000 := p.isLt
  obtain ⟨n, hn⟩ : ∃ n : Fin 50000, n.val = 5000 * t.val + p.val := ⟨⟨5000 * t.val + p.val, by omega⟩, rfl⟩
  have hi : ((cfg1.win 5).blk t).view.emb (ix2 p q) = (ix2 n q : S50000x128.Idx) := by
    funext a
    apply Fin.ext
    match a with
    | ⟨0, _⟩ => show win1_5.index t (0 : Fin 2) * 5000 + 1 * p.val = n.val; omega
    | ⟨1, _⟩ => show win1_5.index t (1 : Fin 2) * 128 + 1 * q.val = q.val; omega
  show k1_pay1 (F := Ideal) (iblk1 V c 0 t) (iblk1 V c 2 t) (iblk1 V c 1 t) (iblk1 V c 3 t) (iblk1 V c 4 t) (ix2 p q)
    = Cert.GraphLayer.node (V c main_arg0) (V c main_v33) (V c main_arg3) (V c main_arg6) (V c main_arg7)
        (((cfg1.win 5).blk t).view.emb (ix2 p q))
  refine Eq.trans ?_ (congrArg (Cert.GraphLayer.node (V c main_arg0) (V c main_v33) (V c main_arg3) (V c main_arg6) (V c main_arg7)) hi.symm)
  show _ = Cert.GraphLayer.nodeAt (V c main_arg0) (V c main_v33) (V c main_arg3) (V c main_arg6) (V c main_arg7) n q
  rw [pay_apply]
  unfold Cert.GraphLayer.nodeAt Cert.GraphLayer.rowDot
  rw [blkB_apply]
  by_cases h : q.val < 64
  · rw [dif_pos h, dif_pos h]
    refine congrArg (fun s : EReal => max (s + _) _) (Finset.sum_congr rfl fun k _ => ?_)
    rw [blkX_apply V c t p k n hn, blkSk_apply]
  · rw [dif_neg h, dif_neg h]
    refine congrArg (fun s : EReal => max (s + _) _) (Finset.sum_congr rfl fun k _ => ?_)
    rw [blkM_apply V c t p k n hn, blkNk_apply]

/-! ## The ten blocks cover the array -/

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- Row `r` is in the block of point `r / 5000`, and every point writes its block back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The array after the ten points -/

/-- After the ten points the output array is the layer's output computed from the arrays the launch found. -/
theorem region1_value (c : Dev nD) :
    (dat1 (F := Ideal) V c).arrAt 5 cfg1.N
      = Cert.GraphLayer.node (V c main_arg0) (V c main_v33) (V c main_arg3) (V c main_arg6) (V c main_arg7) :=
  (dat1 (F := Ideal) V c).arrAt_eq_of_cover 5 _ (fun t _ => flushed_eq V c t) cover

end Blocks

end Cert.GraphLayer.NodeArray

end
-- ==== Proof.KernelValue.lean ====
/-
  The idealized kernel's result as one function of its argument arrays.

  The result array ends at what the second launch's write-backs leave, which is `node x mh sk nk b` of the arrays
  that launch finds: the arguments `x`, `sk`, `nk`, `b` as launched (no host operation and no launch writes an
  argument), and `mh` the per-node mean the host operations computed from the first launch's product `xw x w1`,
  the edge list, the edge weights and the hidden bias.
-/
import proofs.«163181_j79972291052243_2_alg».proof.Proof.KernelRun
import proofs.«163181_j79972291052243_2_alg».proof.Proof.KernelHost
import proofs.«163181_j79972291052243_2_alg».proof.Proof.XwArray
import proofs.«163181_j79972291052243_2_alg».proof.Proof.NodeArray

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Between Cert.GraphLayer

variable (m : (ℓ : Loc nD τ sig) → Buf (Elt Ideal) ℓ) (ρ : Dev nD → PrngReg)

/-! ## The arguments as each launch finds them -/

theorem first_x (c : Dev nD) : V1 m ρ c main_arg0 = m ((c : Thread nD τ).loc main_arg0) := by
  show StableHlo.after hostOps0 (W0 m ρ c) (Proc.devRef .tc main_arg0) = _
  rw [open_arg0]
theorem first_w1 (c : Dev nD) : V1 m ρ c main_arg4 = m ((c : Thread nD τ).loc main_arg4) := by
  show StableHlo.after hostOps0 (W0 m ρ c) (Proc.devRef .tc main_arg4) = _
  rw [open_arg4]

theorem second_x (c : Dev nD) : V5 m ρ c main_arg0 = m ((c : Thread nD τ).loc main_arg0) :=
  ((W6_arr m ρ c 0).trans (((dat1 (V5 m ρ) c).arrAt_in 0 rfl _).trans (A_eq1 (V5 m ρ) c 0))).symm.trans (W6_main_arg0 m ρ c)
theorem second_sk (c : Dev nD) : V5 m ρ c main_arg3 = m ((c : Thread nD τ).loc main_arg3) :=
  ((W6_arr m ρ c 2).trans (((dat1 (V5 m ρ) c).arrAt_in 2 rfl _).trans (A_eq1 (V5 m ρ) c 2))).symm.trans (W6_main_arg3 m ρ c)
theorem second_nk (c : Dev nD) : V5 m ρ c main_arg6 = m ((c : Thread nD τ).loc main_arg6) :=
  ((W6_arr m ρ c 3).trans (((dat1 (V5 m ρ) c).arrAt_in 3 rfl _).trans (A_eq1 (V5 m ρ) c 3))).symm.trans (W6_main_arg6 m ρ c)
theorem second_b (c : Dev nD) : V5 m ρ c main_arg7 = m ((c : Thread nD τ).loc main_arg7) :=
  ((W6_arr m ρ c 4).trans (((dat1 (V5 m ρ) c).arrAt_in 4 rfl _).trans (A_eq1 (V5 m ρ) c 4))).symm.trans (W6_main_arg7 m ρ c)

/-! ## What the host operations hand the second launch -/

/-- The first launch's product, as the host operations find it. -/
theorem product (c : Dev nD) : W2 m ρ c (Proc.devRef .tc main_v4)
    = xw (m ((c : Thread nD τ).loc main_arg0)) (m ((c : Thread nD τ).loc main_arg4)) := by
  refine ((W2_arr m ρ c 2).trans (Cert.GraphLayer.XwArray.region0_value (V1 m ρ) c)).trans ?_
  rw [first_x, first_w1]

/-- The destination rows, at the last stretch. -/
theorem rows (c : Dev nD) : W4 m ρ c (Proc.devRef .tc main_v1) = rowsOf (m ((c : Thread nD τ).loc main_arg1)) := by
  show StableHlo.after hostOps1_1 (W3 m ρ c) (Proc.devRef .tc main_v1) = _
  rw [mid_rows]
  show StableHlo.after hostOps1 (W2 m ρ c) (Proc.devRef .tc main_v1) = _
  rw [first_rows, W2_of_ne m ρ c main_v1 (by decide)]
  show StableHlo.after hostOps0 (W0 m ρ c) (Proc.devRef .tc main_v1) = _
  rw [open_rows]

/-- The per-edge hidden values, at the last stretch. -/
theorem edges (c : Dev nD) : W4 m ρ c (Proc.devRef .tc main_v19)
    = edgeOf (xw (m ((c : Thread nD τ).loc main_arg0)) (m ((c : Thread nD τ).loc main_arg4)))
        (colsOf (m ((c : Thread nD τ).loc main_arg1))) (m ((c : Thread nD τ).loc main_arg2))
        (m ((c : Thread nD τ).loc main_arg5)) := by
  have hc : W1 m ρ c (Proc.devRef .tc main_v3) = colsOf (m ((c : Thread nD τ).loc main_arg1)) := by
    show StableHlo.after hostOps0 (W0 m ρ c) (Proc.devRef .tc main_v3) = _
    rw [open_cols]
  have hw : W1 m ρ c (Proc.devRef .tc main_arg2) = m ((c : Thread nD τ).loc main_arg2) := by
    show StableHlo.after hostOps0 (W0 m ρ c) (Proc.devRef .tc main_arg2) = _
    rw [open_arg2]
  have hb : W1 m ρ c (Proc.devRef .tc main_arg5) = m ((c : Thread nD τ).loc main_arg5) := by
    show StableHlo.after hostOps0 (W0 m ρ c) (Proc.devRef .tc main_arg5) = _
    rw [open_arg5]
  have hp : W3 m ρ c (Proc.devRef .tc main_v18)
      = preOf (xw (m ((c : Thread nD τ).loc main_arg0)) (m ((c : Thread nD τ).loc main_arg4)))
          (colsOf (m ((c : Thread nD τ).loc main_arg1))) (m ((c : Thread nD τ).loc main_arg2))
          (m ((c : Thread nD τ).loc main_arg5)) := by
    show StableHlo.after hostOps1 (W2 m ρ c) (Proc.devRef .tc main_v18) = _
    rw [first_pre, product, W2_of_ne m ρ c main_v3 (by decide), W2_of_ne m ρ c main_arg2 (by decide),
      W2_of_ne m ρ c main_arg5 (by decide), hc, hw, hb]
  show StableHlo.after hostOps1_1 (W3 m ρ c) (Proc.devRef .tc main_v19) = _
  rw [mid_edge, hp]
  rfl

/-- The per-node mean the second launch reads. -/
theorem mean (c : Dev nD) : V5 m ρ c main_v33
    = meanOf (rowsOf (m ((c : Thread nD τ).loc main_arg1)))
        (edgeOf (xw (m ((c : Thread nD τ).loc main_arg0)) (m ((c : Thread nD τ).loc main_arg4)))
          (colsOf (m ((c : Thread nD τ).loc main_arg1))) (m ((c : Thread nD τ).loc main_arg2))
          (m ((c : Thread nD τ).loc main_arg5))) := by
  show StableHlo.after hostOps1_2 (W4 m ρ c) (Proc.devRef .tc main_v33) = _
  rw [last_mean, rows, edges]

/-! ## The result -/

/-- The kernel's whole function of the argument arrays. -/
def result (x : Mat 50000 128) (ei : IVec S2x800000 32) (w : FVec Ideal S800000 .f32) (sk : Mat 128 64)
    (w1 : Mat 128 256) (b1 : FVec Ideal S256 .f32) (nk : Mat 256 64) (b : Col 128) : Mat 50000 128 :=
  node x (meanOf (rowsOf ei) (edgeOf (xw x w1) (colsOf ei) w b1)) sk nk b

/-- The last boundary's contents at the result's buffer. -/
theorem result_value (c : Dev nD) : W6 m ρ c (Proc.devRef .tc main_v34)
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine ((W6_arr m ρ c 5).trans (Cert.GraphLayer.NodeArray.region1_value (V5 m ρ) c)).trans ?_
  rw [second_x, second_sk, second_nk, second_b, mean]
  rfl

/-- The run: every weakly fair execution terminates, the result at `result` of the arguments, the arguments
    unchanged. -/
theorem run : θ_run defs (onTc (τ := τ) (main (F := Ideal))) ⟨m, fun _ => 0, ρ⟩ (fun r => ∀ c : Dev nD,
      r.2.mem ((c.tc : Thread nD τ).loc main_v34)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1).trans (result_value m ρ c), (h c).2⟩) (run_named m ρ)

end Cert.KernelIdeal.Whole

end
-- ==== Proof.LibGatherRows.lean ====
/-
  Rows of a matrix gathered by a column of indices, read at an index: with an operand `[N, C]`, start indices
  `[E, 1]` and a result `[E, C]` (the slice one whole row, the row axis collapsed, the start index naming the row
  axis), the result at `(e, j)` is the operand at `(r, j)`, where `r` is the index `idx[e, 0]` read signed and
  clamped into `[0, N − 1]`. The row `r` depends on the indices and on `N` alone, not on the column or on `C`.
-/
import Idealize.ShloMosaic.Lib.ValueIdx

namespace Cert.LibGatherRows

open Idealize.ShloMosaic Idealize.ShloMosaic.ValueIdx

variable {α : Type}

/-- The dimension numbers of a gather of whole rows by a column of indices. -/
abbrev rowDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row entry `e` reads: its index read signed and clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- The gather read at `(e, j)`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (rowOf hN idx e) j) := by
  unfold Host.gather
  congr 1
  funext a
  refine Fin.ext ?_
  match a with
  | ⟨0, _⟩ =>
    show (rowDims N E C wf).start (ix2 e j) idx (0 : Fin 2) + (rowDims N E C wf).batchCoord (ix2 e j) (0 : Fin 2)
      + (rowDims N E C wf).offCoord (ix2 e j) (0 : Fin 2) = (rowOf hN idx e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx (1 : Fin 2) + (rowDims N E C wf).batchCoord (ix2 e j) (1 : Fin 2)
      + (rowDims N E C wf).offCoord (ix2 e j) (1 : Fin 2) = j.val
    rw [GatherDims.batchCoord_eq_zero _ _ _ List.not_mem_nil]
    unfold GatherDims.start
    rw [dif_neg (show (1 : Fin 2) ∉ (rowDims N E C wf).startIndexMap from
      fun h => absurd (Fin.val_eq_of_eq (List.mem_singleton.mp h)) Nat.one_ne_zero)]
    unfold GatherDims.offCoord
    rw [dif_pos (show (1 : Fin 2) ∈ (rowDims N E C wf).sKept from
      (GatherDims.mem_sKept _ _).mpr ⟨fun h => absurd (Fin.val_eq_of_eq (List.mem_singleton.mp h)) Nat.one_ne_zero, List.not_mem_nil⟩)]
    simp only [Nat.zero_add, Nat.add_zero]
    rfl

end Cert.LibGatherRows
-- ==== Proof.KernelEdge.lean ====
/-
  The kernel program's per-edge hidden value read at an index: at edge `e` and column `j` it is the larger of `0`
  and `w[e] · xw[r, j] + b[j]`, where `r` is the row the edge's source index names (read signed, clamped) in the
  node-side product `xw`.
-/
import proofs.«163181_j79972291052243_2_alg».proof.Proof.KernelHost
import proofs.«163181_j79972291052243_2_alg».proof.Proof.LibGatherRows
import Idealize.ShloMosaic.Lib.Pipeline.Value
import Idealize.ShloMosaic.Lib.ValueIdx

set_option maxRecDepth 16384

noncomputable section

namespace Cert.KernelIdeal.Between

open Idealize.ShloMosaic Idealize.ShloMosaic.TcCoe Idealize.ShloMosaic.ValueIdx
open Cert.KernelIdeal Cert.KernelIdeal.Gen

/-- The edge weight, laid along the columns, read at `(e, j)`. -/
theorem weight_at (w : FVec Ideal S800000 .f32) (e : Fin 800000) (j : Fin 256) :
    broadcastInDim S800000x256 ![0, 1] bcast_S800000x1_S800000x256_0_1
      (broadcastInDim S800000x1 ![0] bcast_S800000_S800000x1_0 w) (ix2 e j) = w (ix1 e) :=
  (broadcastInDim_apply _ bcast_S800000x1_S800000x256_0_1 _ (ix2 e j) (ix2 e (0 : Fin 1)) (fun a => match a with
    | ⟨0, _⟩ => by show e.val = if (800000 : Nat) = 1 then 0 else e.val; rw [if_neg (by decide)]
    | ⟨1, _⟩ => by show 0 = if (1 : Nat) = 1 then 0 else j.val; rw [if_pos rfl])).trans
  (broadcastInDim_apply _ bcast_S800000_S800000x1_0 w (ix2 e (0 : Fin 1)) (ix1 e) (fun a => match a with
    | ⟨0, _⟩ => by show e.val = if (800000 : Nat) = 1 then 0 else e.val; rw [if_neg (by decide)]))

/-- The bias, laid along the rows, read at `(e, j)`. -/
theorem bias_at (b : FVec Ideal S256 .f32) (e : Fin 800000) (j : Fin 256) :
    broadcastInDim S800000x256 ![0, 1] bcast_S1x256_S800000x256_0_1
      (broadcastInDim S1x256 ![1] bcast_S256_S1x256_1 b) (ix2 e j) = b (ix1 j) :=
  (broadcastInDim_apply _ bcast_S1x256_S800000x256_0_1 _ (ix2 e j) (ix2 (0 : Fin 1) j) (fun a => match a with
    | ⟨0, _⟩ => by show 0 = if (1 : Nat) = 1 then 0 else e.val; rw [if_pos rfl]
    | ⟨1, _⟩ => by show j.val = if (256 : Nat) = 1 then 0 else j.val; rw [if_neg (by decide)])).trans
  (broadcastInDim_apply _ bcast_S256_S1x256_1 b (ix2 (0 : Fin 1) j) (ix1 j) (fun a => match a with
    | ⟨0, _⟩ => by show j.val = if (256 : Nat) = 1 then 0 else j.val; rw [if_neg (by decide)]))

/-- The zero the threshold compares with, read at `(e, j)`. -/
theorem zero_at (e : Fin 800000) (j : Fin 256) :
    broadcastInDim S800000x256 ![] bcast_S_S800000x256 (constant (F := Ideal) S_ .f32 0x00000000#32) (ix2 e j)
      = Ideal.ofBits .f32 0x00000000#32 :=
  broadcastInDim_apply _ bcast_S_S800000x256 _ (ix2 e j) ix0 (fun a => a.elim0)

/-- The printed gather is the gather of whole rows by a column of indices. -/
theorem gather_at (xw : FVec Ideal S50000x256 .bf16) (idx : IVec S800000x1 32) (e : Fin 800000) (j : Fin 256) :
    Host.gather gather_S50000x256_S800000x1_S800000x256_1_0_n_n_0_1_1256 xw idx (ix2 e j)
      = xw (ix2 (Cert.LibGatherRows.rowOf (N := 50000) (by decide) idx e) j) :=
  Cert.LibGatherRows.gather_rows_apply (N := 50000) (E := 800000) (C := 256) (by decide)
    gather_S50000x256_S800000x1_S800000x256_1_0_n_n_0_1_1256.wf xw idx e j

/-- The per-edge hidden value at `(e, j)`. -/
theorem edgeOf_apply (xw : FVec Ideal S50000x256 .bf16) (col : IVec S800000 32) (w : FVec Ideal S800000 .f32)
    (b : FVec Ideal S256 .f32) (e : Fin 800000) (j : Fin 256) :
    edgeOf xw col w b (ix2 e j)
      = max (w (ix1 e) * xw (ix2 (Cert.LibGatherRows.rowOf (N := 50000) (by decide) (srcIdx col) e) j) + b (ix1 j))
          (Ideal.ofBits .f32 0x00000000#32) := by
  show max (_ * _ + _) _ = _
  rw [weight_at, bias_at, zero_at]
  show max (w (ix1 e) * Host.gather gather_S50000x256_S800000x1_S800000x256_1_0_n_n_0_1_1256 xw (srcIdx col) (ix2 e j)
    + b (ix1 j)) _ = _
  rw [gather_at]

end Cert.KernelIdeal.Between

end
-- ==== Proof.RefRead.lean ====
/-
  The reference program read whole, through its stages.

  (1) Its result: at row `n` and column `j` the larger of `0` and `c + b[j]`, where `c` is row `n` of `x` against
  column `j` of the self weights for a column below 64, and row `n` of the mean array against column `j − 64` of the
  neighbour weights from 64 on (the two products laid side by side along the columns). The mean array is the stage
  before the second product and is left as it is.

  (2) The per-edge hidden value: at edge `e` and column `j` the larger of `0` and
  `(∑ k, (x[r(e), k] · a[e]) · w[k, j]) + b[j]`, where `r(e)` is the row the edge's index names (read signed and
  clamped into the rows of `x`) and `a[e]` the edge weight.
-/
import proofs.«163181_j79972291052243_2_alg».proof.Proof.Gen.ReferenceIdeal.Read
import proofs.«163181_j79972291052243_2_alg».proof.Proof.Spec
import proofs.«163181_j79972291052243_2_alg».proof.Proof.LibConcat2
import proofs.«163181_j79972291052243_2_alg».proof.Proof.LibGatherRows

noncomputable section

open scoped BigOperators
open Idealize.ShloMosaic Idealize.ShloMosaic.ValueIdx Idealize.SL.Sem
open Cert.ReferenceIdeal Cert.ReferenceIdeal.Gen Cert.ReferenceIdeal.Read Cert.GraphLayer

namespace Cert.ReferenceIdeal.Whole

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x64, .f32⟩ : BufTy).Contents (Elt Ideal))
  (x4 : (⟨S128x256, .f32⟩ : BufTy).Contents (Elt Ideal)) (x5 : (⟨S256, .f32⟩ : BufTy).Contents (Elt Ideal))
  (x6 : (⟨S256x64, .f32⟩ : BufTy).Contents (Elt Ideal)) (x7 : (⟨S128, .f32⟩ : BufTy).Contents (Elt Ideal))

/-! ## The result -/

/-- The self product at `(n, j)`: row `n` of `x` against column `j` of the self weights. -/
theorem self_product_apply (n : Fin 50000) (j : Fin 64) :
    val_main_v32 (F := Ideal) x0 x3 (ix2 n j) = rowDot x0 x3 n j := by
  rw [val_main_v32_apply]
  unfold rowDot
  refine Finset.sum_congr rfl fun k _ => ?_
  have el : lidx_main_v32 (ix2 n j) k = ix2 n k := funext fun a => Fin.ext (by
    match a with
    | ⟨0, _⟩ => rfl
    | ⟨1, _⟩ => rfl)
  have er : ridx_main_v32 (ix2 n j) k = ix2 k j := funext fun a => Fin.ext (by
    match a with
    | ⟨0, _⟩ => rfl
    | ⟨1, _⟩ => rfl)
  rw [el, er]

/-- The neighbour product at `(n, j)`: row `n` of the mean array against column `j` of the neighbour weights. -/
theorem neighbour_product_apply (n : Fin 50000) (j : Fin 64) :
    val_main_v31 (F := Ideal) x0 x1 x2 x4 x5 x6 (ix2 n j)
      = rowDot (val_main_v30 (F := Ideal) x0 x1 x2 x4 x5) x6 n j := by
  rw [val_main_v31_apply]
  unfold rowDot
  refine Finset.sum_congr rfl fun k _ => ?_
  have el : lidx_main_v31 (ix2 n j) k = ix2 n k := funext fun a => Fin.ext (by
    match a with
    | ⟨0, _⟩ => rfl
    | ⟨1, _⟩ => rfl)
  have er : ridx_main_v31 (ix2 n j) k = ix2 k j := funext fun a => Fin.ext (by
    match a with
    | ⟨0, _⟩ => rfl
    | ⟨1, _⟩ => rfl)
  rw [el, er]

/-- The two products side by side: a column below 64 is the self product's, a column from 64 on the neighbour
    product's at the column less 64. -/
theorem joined_apply (n : Fin 50000) (j : Fin 128) :
    val_main_v33 (F := Ideal) x0 x1 x2 x3 x4 x5 x6 (ix2 n j)
      = if h : j.val < 64 then rowDot x0 x3 n ⟨j.val, h⟩
        else rowDot (val_main_v30 (F := Ideal) x0 x1 x2 x4 x5) x6 n ⟨j.val - 64, by have := j.isLt; omega⟩ := by
  unfold val_main_v33
  by_cases h : j.val < 64
  · rw [dif_pos h]
    exact (Cert.LibConcat2.last2_left (val_main_v32 (F := Ideal) x0 x3) (val_main_v31 (F := Ideal) x0 x1 x2 x4 x5 x6)
      concatenates_S50000x64_S50000x64_S50000x128_d1 n j h).trans (self_product_apply x0 x3 n ⟨j.val, h⟩)
  · rw [dif_neg h]
    have hj := j.isLt
    exact (Cert.LibConcat2.last2_right (val_main_v32 (F := Ideal) x0 x3) (val_main_v31 (F := Ideal) x0 x1 x2 x4 x5 x6)
      concatenates_S50000x64_S50000x64_S50000x128_d1 n j (by omega) (by omega)).trans
        (neighbour_product_apply x0 x1 x2 x4 x5 x6 n ⟨j.val - 64, by omega⟩)

/-- The reference's result is the layer's output of the specification, over the mean array as the reference
    computes it. -/
theorem ref_is_node :
    val_main_v37 (F := Ideal) x0 x1 x2 x3 x4 x5 x6 x7
      = node x0 (val_main_v30 (F := Ideal) x0 x1 x2 x4 x5) x3 x6 x7 := by
  funext i
  obtain ⟨n, j, rfl⟩ : ∃ (n : Fin 50000) (j : Fin 128), i = ix2 n j := ⟨i 0, i 1, eq_ix2 i⟩
  rw [val_main_v37_apply, val_main_v36_apply, val_main_call1_v0_apply, val_main_call1_cst_apply, val_main_v35_apply,
    val_main_v34_apply, joined_apply]
  have eb : idx_main_v34 (idx_main_v35 (ix2 n j)) = ix1 j := funext fun a => Fin.ext (by
    match a with
    | ⟨0, _⟩ => rfl)
  rw [eb]
  rfl

/-! ## The per-edge hidden value -/

/-- The gathered rows at `(e, k)`: row `r(e)` of `x`, where `r(e)` is the edge's index read signed and clamped. -/
theorem gathered_apply (e : Fin 800000) (k : Fin 128) :
    val_main_v10 (F := Ideal) x0 x1 (ix2 e k)
      = x0 (ix2 (Cert.LibGatherRows.rowOf (N := 50000) (by decide) (val_main_v9 (F := Ideal) x1) e) k) := by
  unfold val_main_v10
  generalize val_main_v9 (F := Ideal) x1 = idx
  exact Cert.LibGatherRows.gather_rows_apply (N := 50000) (E := 800000) (C := 128) (by decide)
    gather_S50000x128_S800000x1_S800000x128_1_0_n_n_0_1_1128.wf x0 idx e k

/-- The reference's hidden value of edge `e` at column `j`. -/
theorem ref_edge_apply (e : Fin 800000) (j : Fin 256) :
    val_main_v18 (F := Ideal) x0 x1 x2 x4 x5 (ix2 e j)
      = max ((∑ k : Fin 128, (x0 (ix2 (Cert.LibGatherRows.rowOf (N := 50000) (by decide) (val_main_v9 (F := Ideal) x1) e) k)
          * x2 (ix1 e)) * x4 (ix2 k j)) + x5 (ix1 j)) (Ideal.ofBits .f32 0x00000000#32) := by
  rw [val_main_v18_apply, val_main_v17_apply, val_main_call0_v0_apply, val_main_call0_cst_apply, val_main_v16_apply,
    val_main_v15_apply, val_main_v14_apply]
  have eb : idx_main_v15 (idx_main_v16 (ix2 e j)) = ix1 j := funext fun a => Fin.ext (by
    match a with
    | ⟨0, _⟩ => rfl)
  rw [eb, Ideal.maximumf_def, Ideal.addf_def, Ideal.ofBits_def]
  refine congrArg (fun s => max (s + x5 (ix1 j)) (Ideal.ofBits .f32 0x00000000#32)) (Finset.sum_congr rfl fun k _ => ?_)
  have el : lidx_main_v14 (ix2 e j) k = ix2 e k := funext fun a => Fin.ext (by
    match a with
    | ⟨0, _⟩ => rfl
    | ⟨1, _⟩ => rfl)
  have er : ridx_main_v14 (ix2 e j) k = ix2 k j := funext fun a => Fin.ext (by
    match a with
    | ⟨0, _⟩ => rfl
    | ⟨1, _⟩ => rfl)
  have ew : idx_main_v11 (idx_main_v12 (ix2 e k)) = ix1 e := funext fun a => Fin.ext (by
    match a with
    | ⟨0, _⟩ => rfl)
  rw [el, er, val_main_v13_apply, val_main_v12_apply, val_main_v11_apply, ew, gathered_apply, Ideal.mulf_def]

end Cert.ReferenceIdeal.Whole

end
-- ==== Proof.EdgeLaw.lean ====
/-
  The one algebraic law that joins the two programs. For real numbers (no infinity among them),
      Σ_k (a_k · w) · b_k  =  w · Σ_k a_k · b_k :
  scaling a row by a scalar before a product with a matrix is scaling the product. On the extended reals the
  law needs every factor finite (a sum of products with an infinite scalar need not distribute), which is what the
  precondition on the inputs provides.
-/
import proofs.«163181_j79972291052243_2_alg».proof.Proof.Spec

noncomputable section

open scoped BigOperators

namespace Cert.GraphLayer

/-- An extended real that is a real number. -/
def IsReal (x : EReal) : Prop := ∃ r : ℝ, x = (r : EReal)

/-- The coercion from the reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling the row first, or the product afterwards: the same sum, when every factor is a real number. -/
theorem scale_sum {K : ℕ} (a b : Fin K → EReal) (w : EReal) (ha : ∀ k, IsReal (a k)) (hb : ∀ k, IsReal (b k))
    (hw : IsReal w) : ∑ k, (a k * w) * b k = w * ∑ k, a k * b k := by
  obtain ⟨w', rfl⟩ := hw
  choose a' ha' using ha
  choose b' hb' using hb
  simp only [ha', hb', ← EReal.coe_mul, ← coe_sum]
  rw [Finset.mul_sum]
  refine congrArg _ (Finset.sum_congr rfl fun k _ => ?_)
  ring

end Cert.GraphLayer

end
-- ==== Proof.Bridge.lean ====
/-
  The two programs compute one function.

  Both end in the same last layer `node x mh sk nk b`, and both form the per-node mean `mh` by the same host
  operations from the per-edge hidden values; they differ only in how an edge's hidden value is formed. The
  reference scales the gathered input row by the edge weight and then multiplies by the hidden matrix:
  `Σ_k (x[r,k] · w) · w1[k,j]`; the kernel multiplies every node's row by the hidden matrix once and scales the
  gathered product: `w · Σ_k x[r,k] · w1[k,j]`. For finite inputs these are equal (`scale_sum`), the row `r` being the
  same on both sides because a gather of whole rows reads the row its index names whatever the row's width.
-/
import proofs.«163181_j79972291052243_2_alg».proof.Proof.KernelValue
import proofs.«163181_j79972291052243_2_alg».proof.Proof.KernelEdge
import proofs.«163181_j79972291052243_2_alg».proof.Proof.RefRead
import proofs.«163181_j79972291052243_2_alg».proof.Proof.EdgeLaw

set_option maxRecDepth 16384

noncomputable section

namespace Cert.GraphLayer.Bridge

open Idealize.ShloMosaic Idealize.ShloMosaic.ValueIdx
open Cert.GraphLayer Cert.KernelIdeal.Between Cert.KernelIdeal.Whole

variable (x0 : (⟨Cert.ReferenceIdeal.S50000x128, .f32⟩ : BufTy).Contents (Elt Ideal))
  (x1 : (⟨Cert.ReferenceIdeal.S2x800000, .i32⟩ : BufTy).Contents (Elt Ideal))
  (x2 : (⟨Cert.ReferenceIdeal.S800000, .f32⟩ : BufTy).Contents (Elt Ideal))
  (x3 : (⟨Cert.ReferenceIdeal.S128x64, .f32⟩ : BufTy).Contents (Elt Ideal))
  (x4 : (⟨Cert.ReferenceIdeal.S128x256, .f32⟩ : BufTy).Contents (Elt Ideal))
  (x5 : (⟨Cert.ReferenceIdeal.S256, .f32⟩ : BufTy).Contents (Elt Ideal))
  (x6 : (⟨Cert.ReferenceIdeal.S256x64, .f32⟩ : BufTy).Contents (Elt Ideal))
  (x7 : (⟨Cert.ReferenceIdeal.S128, .f32⟩ : BufTy).Contents (Elt Ideal))

/-- The source indices are one term in both programs. -/
theorem src_same : srcIdx (colsOf x1) = Cert.ReferenceIdeal.Read.val_main_v9 (F := Ideal) x1 := rfl

/-- The reference's per-node mean is the same host operations applied to its own per-edge values. -/
theorem ref_mean : Cert.ReferenceIdeal.Read.val_main_v30 (F := Ideal) x0 x1 x2 x4 x5
    = meanOf (rowsOf x1) (Cert.ReferenceIdeal.Read.val_main_v18 (F := Ideal) x0 x1 x2 x4 x5) := rfl

/-- The per-edge hidden values agree, for finite inputs. -/
theorem edges_same (h0 : ∀ i, IsReal (x0 i)) (h2 : ∀ i, IsReal (x2 i)) (h4 : ∀ i, IsReal (x4 i)) :
    edgeOf (xw x0 x4) (colsOf x1) x2 x5 = Cert.ReferenceIdeal.Read.val_main_v18 (F := Ideal) x0 x1 x2 x4 x5 := by
  funext i
  obtain ⟨e, j, rfl⟩ : ∃ (e : Fin 800000) (j : Fin 256), i = ix2 e j := ⟨i 0, i 1, eq_ix2 i⟩
  rw [edgeOf_apply, Cert.ReferenceIdeal.Whole.ref_edge_apply, src_same]
  generalize Cert.LibGatherRows.rowOf (N := 50000) (by decide) (Cert.ReferenceIdeal.Read.val_main_v9 (F := Ideal) x1) e = r
  show max (x2 (ix1 e) * (∑ k : Fin 128, x0 (ix2 r k) * x4 (ix2 k j)) + x5 (ix1 j)) _ = _
  rw [scale_sum (fun k => x0 (ix2 r k)) (fun k => x4 (ix2 k j)) (x2 (ix1 e)) (fun k => h0 _) (fun k => h4 _) (h2 _)]

/-- The kernel's function of the arguments is the reference's, for finite inputs. -/
theorem result_same (h0 : ∀ i, IsReal (x0 i)) (h2 : ∀ i, IsReal (x2 i)) (h4 : ∀ i, IsReal (x4 i)) :
    Cert.ReferenceIdeal.Read.val_main_v37 (F := Ideal) x0 x1 x2 x3 x4 x5 x6 x7 = result x0 x1 x2 x3 x4 x5 x6 x7 := by
  rw [Cert.ReferenceIdeal.Whole.ref_is_node, ref_mean, ← edges_same x0 x1 x2 x4 x5 h0 h2 h4]
  rfl

end Cert.GraphLayer.Bridge

end
-- ==== Proof.FiniteInputs.lean ====
/-
  The precondition, read back: when the printed predicate is all ones, every entry of the node features, of the edge
  weights and of the hidden-layer matrix is a real number.

  The predicate is a conjunction with one conjunct per float input: the reduction by `and`, over every index and from
  the constant one, of the bits `|a[i]| < +∞`. A conjunction of bits is one iff each is; a reduction by `and` into a single
  result that is one met a one at every index; and an extended real whose absolute value `max a (-a)` is below `+∞` is
  neither infinity, so it is a real.
-/
import proofs.«163181_j79972291052243_2_alg».proof.Pre_finite_inputs
import Idealize.ShloMosaic.PureOps.Ideal
import Idealize.ShloMosaic.Lib.ReduceAll
import Idealize.ShloMosaic.Lib.ValueIdx

noncomputable section

namespace Cert.GraphLayer.FiniteInputs

open Idealize.ShloMosaic Idealize.ShloMosaic.ValueIdx Cert.Pre_finite_inputs

/-- The rank-0 shape has one index. -/
instance : Subsingleton S_.Idx := ⟨fun a b => funext fun d => d.elim0⟩

/-- The bit pattern `0x7F800000` denotes `+∞`. -/
theorem inf_bits : Ideal.ofBits .f32 0x7F800000#32 = (⊤ : EReal) := by simp [Ideal.ofBits, Ideal.ieee]

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry: where the comparison `|a| < +∞` gives the bit one, the entry of `a` is a real. -/
theorem real_of_bit {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [inf_bits] at h'
  unfold Ideal.cmp at h'
  refine real_of_abs_lt_top _ ?_
  by_contra hn
  simp [hn] at h'

/-- The precondition holds only of arguments whose node features, edge weights and hidden-layer matrix are real entry
    by entry. -/
theorem finite_of_pre [Cert.Pre_finite_inputs.Facts]
    (a0 : FVec Ideal S50000x128 .f32) (a1 : IVec S2x800000 32) (a2 : FVec Ideal S800000 .f32) (a3 : FVec Ideal S128x64 .f32)
    (a4 : FVec Ideal S128x256 .f32) (a5 : FVec Ideal S256 .f32) (a6 : FVec Ideal S256x64 .f32) (a7 : FVec Ideal S128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a4 i = (r : EReal)) := by
  have e := congrFun h ix0
  dsimp only [Cert.Pre_finite_inputs.fn, Cert.Pre_finite_inputs.fn_part1, andi] at e
  simp only [IntOp.andi_eq_one] at e
  obtain ⟨⟨⟨⟨⟨⟨h0, h2⟩, h3⟩, h4⟩, h5⟩, h6⟩, h7⟩ := e
  exact ⟨fun i => real_of_bit a0 _ i (Host.reduce_andi_all _ _ _ _ ix0 h0 i),
    fun i => real_of_bit a2 _ i (Host.reduce_andi_all _ _ _ _ ix0 h2 i),
    fun i => real_of_bit a4 _ i (Host.reduce_andi_all _ _ _ _ ix0 h4 i)⟩

end Cert.GraphLayer.FiniteInputs

end
-- ==== Proof.lean ====
/-
  The certificate of a graph layer with mean pooling over neighbours: the kernel program (two launches and the host
  operations between them) against its reference.

  The three frames: the two kernel programs' are the generated frame proofs; the reference has no launch and its
  frame is its run with the result dropped. The idealization rewrote nothing, so `preserves` is trivial.
  `algebraic`: the idealized kernel ends with its result at `Whole.result` of the argument arrays (KernelValue: the
  second launch's write-backs, the host operations' mean, the first launch's product), the reference at its composed
  term, which is the same function of arguments that agree (Bridge) once every entry of the node features, the
  edge weights and the hidden matrix is a real number, as the precondition says (FiniteInputs).
-/
import proofs.«163181_j79972291052243_2_alg».proof.Defs
import proofs.«163181_j79972291052243_2_alg».proof.Proof.Gen.Kernel
import proofs.«163181_j79972291052243_2_alg».proof.Proof.Gen.Kernel.Skeleton
import proofs.«163181_j79972291052243_2_alg».proof.Proof.Gen.Kernel.Launch
import proofs.«163181_j79972291052243_2_alg».proof.Proof.Gen.Kernel.Points
import proofs.«163181_j79972291052243_2_alg».proof.Proof.Gen.Kernel.Frame
import proofs.«163181_j79972291052243_2_alg».proof.Proof.Gen.KernelIdeal
import proofs.«163181_j79972291052243_2_alg».proof.Proof.Gen.KernelIdeal.Skeleton
import proofs.«163181_j79972291052243_2_alg».proof.Proof.Gen.KernelIdeal.Launch
import proofs.«163181_j79972291052243_2_alg».proof.Proof.Gen.KernelIdeal.Points
import proofs.«163181_j79972291052243_2_alg».proof.Proof.Gen.KernelIdeal.Frame
import proofs.«163181_j79972291052243_2_alg».proof.Proof.Gen.ReferenceIdeal
import proofs.«163181_j79972291052243_2_alg».proof.Proof.Gen.Pre_finite_inputs
import proofs.«163181_j79972291052243_2_alg».proof.Proof.Gen.ReferenceIdeal.Run
import proofs.«163181_j79972291052243_2_alg».proof.Proof.Gen.ReferenceIdeal.Read
import proofs.«163181_j79972291052243_2_alg».proof.Proof.Bridge
import proofs.«163181_j79972291052243_2_alg».proof.Proof.FiniteInputs
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the same result: the kernel's at its whole function of the arguments, the
    reference's composed term equal to it by the bridge, the inputs finite by the precondition. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h4⟩ := Cert.GraphLayer.FiniteInputs.finite_of_pre _ _ _ _ _ _ _ _ (hpre c)
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.ReferenceIdeal.Read.val_main_v37_eq _ _ _ _ _ _ _ _).trans
    (Cert.GraphLayer.Bridge.result_same _ _ _ _ _ _ _ _ h0 h2 h4)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
